-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S4096x128x128 : Shape := ⟨3, ![4096, 128, 128]⟩
abbrev S64x128x128 : Shape := ⟨3, ![64, 128, 128]⟩

abbrev nBuf : Space → Nat
  | .hbm => 4
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S4096x128x128, .f32⟩
  | .hbm, ⟨2, _⟩ => ⟨S4096x128x128, .f32⟩
  | .hbm, ⟨3, _⟩ => ⟨S16x256x128x128, .f32⟩
  | .local _ .vmem, ⟨0, _⟩ => ⟨S64x128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x256x128x128_S4096x128x128 : S16x256x128x128.ShapeCasts S4096x128x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  rotates_S64x128x128_d1 : S64x128x128.Rotates 1 none
  iota_S64x128x128_d1_w32 : S64x128x128.Iotas .tc 32 [1]
  rotates_S64x128x128_d2 : S64x128x128.Rotates 2 none
  iota_S64x128x128_d2_w32 : S64x128x128.Iotas .tc 32 [2]
  shapeCasts_S4096x128x128_S16x256x128x128 : S4096x128x128.ShapeCasts S16x256x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S4096x128x128.size a
  hwx0_0 : ∀ i : grid0.Coords, EltTy.bits .f32 = 32 ∨ (Rect.block (s := S4096x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S4096x128x128.size a
  hwx0_1 : ∀ i : grid0.Coords, EltTy.bits .f32 = 32 ∨ (Rect.block (s := S4096x128x128) S64x128x128.size (cc0_transform_1 i) (hinb0_1 i)).WholeWords (EltTy.packing .f32)

variable [Facts₀]

abbrev win0_0 : Pipeline.Window sig grid0 :=
  Pipeline.Window.ofSpec (Memref.whole main_v0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S_, .f32⟩
  | .hbm, ⟨2, _⟩ => ⟨S_, .f32⟩
  | .hbm, ⟨3, _⟩ => ⟨S16x256x128x128, .f32⟩
  | .hbm, ⟨4, _⟩ => ⟨S_, .f32⟩
  | .hbm, ⟨5, _⟩ => ⟨S_, .f32⟩
  | .hbm, ⟨6, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_call1_cst : Ref sig .tc := ⟨.hbm, 4, rfl⟩
abbrev main_call1_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x256x128x128_S16x256x128x128_w1s1p0_0_w1s1p0_0_w128s1p127_0_w1s1p0_0 : S16x256x128x128.ReduceWindows (![1, 1, 128, 1] : Fin 4 → Nat) ![1, 1, 1, 1] ![0, 0, 127, 0] ![0, 0, 0, 0] S16x256x128x128
  h_S_ : 0 < S_.numel
  reduceWindows_S16x256x128x128_S16x256x128x128_w1s1p0_0_w1s1p0_0_w1s1p0_0_w128s1p127_0 : S16x256x128x128.ReduceWindows (![1, 1, 1, 128] : Fin 4 → Nat) ![1, 1, 1, 1] ![0, 0, 0, 127] ![0, 0, 0, 0] S16x256x128x128

variable [Facts₀]

class Facts : Prop extends Facts₀ where

variable [Facts]
-- ==== Proof.LibPrefixMax.lean ====
/-
  Running maxima of a finite sequence.

  For a sequence x of N entries in a linear order with a least element, the maximum over a window of L entries ending at
  h, and over the whole prefix ending at h.  A window of one entry is the entry; a window of N or more entries is the
  prefix; and the window of L + s entries ending at h is the window of L entries ending at h joined with the window of L
  entries ending at h - s, whenever s ≤ L (the two windows then overlap or touch), the second one dropped when h < s.
  Doubling s = L from 1 therefore reaches the prefix maximum in log₂ N steps.  A left fold of max from the least
  element over all positions is the maximum over all positions.
-/
import Mathlib.Order.Fin.Basic
import Mathlib.Data.Finset.Lattice.Fold
import Mathlib.Data.Fintype.Basic
import Mathlib.Data.List.FinRange
import Mathlib.Tactic

namespace Idealize.ShloMosaic.PrefixMax

variable {α : Type} [LinearOrder α] [OrderBot α] {N : Nat}

/-- The largest of the entries x j with h - L < j ≤ h. -/
def winMax (x : Fin N → α) (L : Nat) (h : Fin N) : α :=
  (Finset.univ.filter fun j : Fin N => j.val ≤ h.val ∧ h.val < j.val + L).sup x

/-- The largest of the entries x j with j ≤ h. -/
def prefMax (x : Fin N → α) (h : Fin N) : α :=
  (Finset.univ.filter fun j : Fin N => j.val ≤ h.val).sup x

/-- The window of one entry ending at h holds x h alone. -/
theorem winMax_one (x : Fin N → α) (h : Fin N) : winMax x 1 h = x h := by
  unfold winMax
  have e : (Finset.univ.filter fun j : Fin N => j.val ≤ h.val ∧ h.val < j.val + 1) = {h} := by
    ext j
    simp only [Finset.mem_filter, Finset.mem_univ, true_and, Finset.mem_singleton]
    constructor
    · intro hj; exact Fin.ext (by omega)
    · rintro rfl; omega
  rw [e, Finset.sup_singleton]

/-- A window at least as long as the sequence is the whole prefix. -/
theorem winMax_full (x : Fin N → α) (L : Nat) (hL : N ≤ L) (h : Fin N) : winMax x L h = prefMax x h := by
  unfold winMax prefMax
  refine congrArg (fun S => Finset.sup S x) ?_
  ext j
  simp only [Finset.mem_filter, Finset.mem_univ, true_and]
  have := h.isLt
  constructor
  · exact fun hj => hj.1
  · intro hj; exact ⟨hj, by omega⟩

/-- One step of the doubling scan: the entry at h joined with the entry s places before it, or with the least element
    when there is no such place. -/
def shiftMax (s : Nat) (f : Fin N → α) (h : Fin N) : α :=
  max (f h) (if hs : s ≤ h.val then f ⟨h.val - s, by have := h.isLt; omega⟩ else ⊥)

/-- THE STEP: windows of L entries, shifted by s ≤ L and joined, are windows of L + s entries. -/
theorem shiftMax_winMax (x : Fin N → α) (L s : Nat) (hsL : s ≤ L) (h : Fin N) :
    shiftMax s (winMax x L) h = winMax x (L + s) h := by
  unfold shiftMax
  by_cases hs : s ≤ h.val
  · rw [dif_pos hs]
    unfold winMax
    rw [← Finset.sup_union]
    refine congrArg (fun S => Finset.sup S x) ?_
    ext j
    simp only [Finset.mem_union, Finset.mem_filter, Finset.mem_univ, true_and]
    omega
  · rw [dif_neg hs, max_eq_left bot_le]
    unfold winMax
    refine congrArg (fun S => Finset.sup S x) ?_
    ext j
    simp only [Finset.mem_filter, Finset.mem_univ, true_and]
    omega

/-- The step as an equation of sequences. -/
theorem shiftMax_winMax_fun (x : Fin N → α) (L s : Nat) (hsL : s ≤ L) :
    shiftMax s (winMax x L) = winMax x (L + s) := funext (shiftMax_winMax x L s hsL)

/-- A left fold of max over a list, from a, is a joined with the maximum over the list's members. -/
theorem foldl_max_eq_sup (g : Fin N → α) (l : List (Fin N)) (a : α) :
    l.foldl (fun r n => max r (g n)) a = a ⊔ l.toFinset.sup g := by
  induction l generalizing a with
  | nil => simp
  | cons n l ih => rw [List.foldl_cons, ih, List.toFinset_cons, Finset.sup_insert, sup_assoc]

/-- A left fold of max from the least element over all positions is the maximum over all positions. -/
theorem foldl_finRange_max (g : Fin N → α) :
    (List.finRange N).foldl (fun r n => max r (g n)) ⊥ = Finset.univ.sup g := by
  rw [foldl_max_eq_sup, List.toFinset_finRange, bot_sup_eq]

/-- The maximum over all positions n of the entry at h + n - (N - 1), the least element where that is before the
    sequence's start, is the prefix maximum at h: the window of N positions ending at h, padded below. -/
theorem sup_padded_eq_prefMax (x : Fin N → α) (h : Fin N) (g : Fin N → α)
    (hg : ∀ n : Fin N, g n = if hin : N - 1 ≤ h.val + n.val ∧ h.val + n.val - (N - 1) < N
      then x ⟨h.val + n.val - (N - 1), hin.2⟩ else ⊥) :
    Finset.univ.sup g = prefMax x h := by
  unfold prefMax
  apply le_antisymm
  · refine Finset.sup_le fun n _ => ?_
    rw [hg n]
    by_cases hin : N - 1 ≤ h.val + n.val ∧ h.val + n.val - (N - 1) < N
    · rw [dif_pos hin]
      refine Finset.le_sup (f := x) ?_
      simp only [Finset.mem_filter, Finset.mem_univ, true_and]
      have := n.isLt
      omega
    · rw [dif_neg hin]; exact bot_le
  · refine Finset.sup_le fun j hj => ?_
    simp only [Finset.mem_filter, Finset.mem_univ, true_and] at hj
    have hjl := j.isLt
    have hhl := h.isLt
    have hn : N - 1 - (h.val - j.val) < N := by omega
    have hin : N - 1 ≤ h.val + (N - 1 - (h.val - j.val)) ∧ h.val + (N - 1 - (h.val - j.val)) - (N - 1) < N := by omega
    have e : x j = g ⟨N - 1 - (h.val - j.val), hn⟩ := by
      rw [hg, dif_pos hin]
      exact congrArg x (Fin.ext (by show j.val = h.val + (N - 1 - (h.val - j.val)) - (N - 1); omega))
    rw [e]
    exact Finset.le_sup (Finset.mem_univ _)

/-- The same with the positions indexed by a type of M = N members. -/
theorem sup_padded_eq_prefMax' {M : Nat} (hM : M = N) (x : Fin N → α) (h : Fin N) (g : Fin M → α)
    (hg : ∀ n : Fin M, g n = if hin : N - 1 ≤ h.val + n.val ∧ h.val + n.val - (N - 1) < N
      then x ⟨h.val + n.val - (N - 1), hin.2⟩ else ⊥) :
    Finset.univ.sup g = prefMax x h := by
  subst hM
  exact sup_padded_eq_prefMax x h g hg

end Idealize.ShloMosaic.PrefixMax
-- ==== Proof.LibScanOps.lean ====
/-
  The doubling scan for running maxima on a block of shape [64, 128, 128], read at an index.

  One step of the scan along an axis is: rotate the block by s along the axis, replace the entries whose coordinate on
  the axis is below s (the ones the rotation brought round the end) by -∞, and take the pointwise maximum with the block
  itself.  Read at an index this is the entry joined with the entry s places before it on that axis.  Seven steps with
  s = 1, 2, 4, …, 64 turn every line of 128 entries along the axis into its running maxima: after the steps up to s the
  entry at position h holds the maximum over the window of 2 s positions ending at h, and a window of 128 positions is
  the whole prefix.  Everything is at the ideal instance, where a float is an extended real and -∞ is the least element.
-/
import Idealize.ShloMosaic.Lib.ValueIdx
import Idealize.ShloMosaic.Lib.Pipeline.Value
import Idealize.ShloMosaic.Lib.KernelVsHost
import Idealize.ShloMosaic.PureOps.Ideal
import proofs.«138507_j54357106098213_1_alg».proof.Proof.LibPrefixMax

noncomputable section

namespace Idealize.ShloMosaic.ScanOps

open Idealize.ShloMosaic Idealize.ShloMosaic.ValueIdx Idealize.ShloMosaic.PrefixMax

/-- The block. -/
abbrev SB : Shape := ⟨3, ![64, 128, 128]⟩

/-! ## The comparison of a coordinate with the shift, and the word for -∞ -/

/-- A 32-bit word below 128 is its own signed value. -/
theorem toInt_small (k : Nat) (hk : k < 128) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- The signed comparison k ≥ s of two words below 128 is the comparison of the numbers. -/
theorem sge_small (k s : Nat) (hk : k < 128) (hs : s < 128) :
    IntOp.cmpi .sge (BitVec.ofNat 32 k) (BitVec.ofNat 32 s) = if s ≤ k then 1#1 else 0#1 := by
  show BitVec.ofBool ((BitVec.ofNat 32 s).sle (BitVec.ofNat 32 k)) = _
  rw [BitVec.sle, toInt_small s hs, toInt_small k hk]
  by_cases h : s ≤ k
  · rw [if_pos h, decide_eq_true (by exact_mod_cast h)]; rfl
  · rw [if_neg h, decide_eq_false (by exact_mod_cast h)]; rfl

/-- The word 0xFF800000 denotes -∞, the least extended real. -/
theorem negInf : FloatOps.ofBits (F := Ideal) .f32 0xFF800000#32 = (⊥ : EReal) := by
  show Ideal.ofBits .f32 0xFF800000#32 = ⊥
  simp [Ideal.ofBits, Ideal.ieee]

/-! ## One step along the middle axis -/

/-- One step of the scan along the middle axis with shift s, as a vector program. -/
def stepH (s : Nat) (v : FVec Ideal SB .f32) (hR : SB.Rotates 1 none) (hI : SB.Iotas .tc 32 [1]) : FVec Ideal SB .f32 :=
  maximumf v (select (cmpi .sge (iota .tc SB 32 [1] hI) (broadcast SB (BitVec.ofNat 32 s)))
    (dynamicRotate 1 (BitVec.ofNat 32 s) none v hR) (broadcast SB (FloatOps.ofBits (F := Ideal) .f32 0xFF800000#32)))

/-- Read at (n, h, w) the step joins the entry with the one s rows above it in the same column. -/
theorem stepH_apply (s : Nat) (hs : s < 128) (v : FVec Ideal SB .f32) (hR : SB.Rotates 1 none) (hI : SB.Iotas .tc 32 [1])
    (n : Fin 64) (h w : Fin 128) :
    stepH s v hR hI (ix3 n h w) = shiftMax s (fun h' : Fin 128 => v (ix3 n h' w)) h := by
  unfold stepH shiftMax
  rw [maximumf_apply, select_apply]
  have hc : cmpi .sge (iota .tc SB 32 [1] hI) (broadcast SB (BitVec.ofNat 32 s)) (ix3 n h w)
      = if s ≤ h.val then 1#1 else 0#1 := by
    show IntOp.cmpi .sge (BitVec.ofNat 32 (0 * 128 + h.val)) (BitVec.ofNat 32 s) = _
    rw [Nat.zero_mul, Nat.zero_add]
    exact sge_small h.val s h.isLt hs
  rw [hc]
  by_cases hle : s ≤ h.val
  · rw [if_pos hle, select_one, dif_pos hle]
    refine congrArg (max _) ?_
    refine dynamicRotate_apply (1 : Fin 3) (BitVec.ofNat 32 s) v hR (ix3 n h w)
      (ix3 n ⟨h.val - s, by have := h.isLt; omega⟩ w) (fun b => ?_)
    match b with
    | ⟨0, _⟩ => exact (if_neg (fun hh => absurd (congrArg Fin.val hh) (show ¬ (0 : Nat) = 1 by decide))).symm
    | ⟨1, _⟩ =>
      refine Eq.trans ?_ (if_pos (Fin.ext rfl)).symm
      show h.val - s = (h.val + 128 - (BitVec.ofNat 32 s).toNat % 128) % 128
      rw [BitVec.toNat_ofNat, Nat.mod_eq_of_lt (show s < 2 ^ 32 by omega)]
      have := h.isLt
      omega
    | ⟨2, _⟩ => exact (if_neg (fun hh => absurd (congrArg Fin.val hh) (show ¬ (2 : Nat) = 1 by decide))).symm
  · rw [if_neg hle, select_zero, dif_neg hle, broadcast_apply, negInf]

/-- A step with shift s ≤ L takes windows of L rows to windows of L + s rows. -/
theorem stepH_window (s L : Nat) (hs : s < 128) (hsL : s ≤ L) (x v : FVec Ideal SB .f32)
    (hR : SB.Rotates 1 none) (hI : SB.Iotas .tc 32 [1])
    (hv : ∀ (n : Fin 64) (h w : Fin 128), v (ix3 n h w) = winMax (fun h' : Fin 128 => x (ix3 n h' w)) L h)
    (n : Fin 64) (h w : Fin 128) :
    stepH s v hR hI (ix3 n h w) = winMax (fun h' : Fin 128 => x (ix3 n h' w)) (L + s) h := by
  rw [stepH_apply s hs v hR hI n h w]
  have e : (fun h' : Fin 128 => v (ix3 n h' w)) = winMax (fun h' : Fin 128 => x (ix3 n h' w)) L :=
    funext fun h' => hv n h' w
  rw [e]
  exact shiftMax_winMax _ L s hsL h

/-- The seven steps along the middle axis. -/
def scanH (x : FVec Ideal SB .f32) (hR : SB.Rotates 1 none) (hI : SB.Iotas .tc 32 [1]) : FVec Ideal SB .f32 :=
  stepH 64 (stepH 32 (stepH 16 (stepH 8 (stepH 4 (stepH 2 (stepH 1 x hR hI) hR hI) hR hI) hR hI) hR hI) hR hI) hR hI

/-- The seven steps leave at (n, h, w) the maximum of column w of plane n over the rows up to h. -/
theorem scanH_apply (x : FVec Ideal SB .f32) (hR : SB.Rotates 1 none) (hI : SB.Iotas .tc 32 [1])
    (n : Fin 64) (h w : Fin 128) :
    scanH x hR hI (ix3 n h w) = prefMax (fun h' : Fin 128 => x (ix3 n h' w)) h := by
  have h0 : ∀ (n : Fin 64) (h w : Fin 128), x (ix3 n h w) = winMax (fun h' : Fin 128 => x (ix3 n h' w)) 1 h :=
    fun n h w => (winMax_one (fun h' : Fin 128 => x (ix3 n h' w)) h).symm
  have h1 := stepH_window 1 1 (by omega) (by omega) x x hR hI h0
  have h2 := stepH_window 2 2 (by omega) (by omega) x _ hR hI h1
  have h4 := stepH_window 4 4 (by omega) (by omega) x _ hR hI h2
  have h8 := stepH_window 8 8 (by omega) (by omega) x _ hR hI h4
  have h16 := stepH_window 16 16 (by omega) (by omega) x _ hR hI h8
  have h32 := stepH_window 32 32 (by omega) (by omega) x _ hR hI h16
  have h64 := stepH_window 64 64 (by omega) (by omega) x _ hR hI h32
  unfold scanH
  rw [h64 n h w]
  exact winMax_full _ 128 (by omega) h

/-! ## One step along the last axis -/

/-- One step of the scan along the last axis with shift s, as a vector program. -/
def stepW (s : Nat) (v : FVec Ideal SB .f32) (hR : SB.Rotates 2 none) (hI : SB.Iotas .tc 32 [2]) : FVec Ideal SB .f32 :=
  maximumf v (select (cmpi .sge (iota .tc SB 32 [2] hI) (broadcast SB (BitVec.ofNat 32 s)))
    (dynamicRotate 2 (BitVec.ofNat 32 s) none v hR) (broadcast SB (FloatOps.ofBits (F := Ideal) .f32 0xFF800000#32)))

/-- Read at (n, h, w) the step joins the entry with the one s columns before it in the same row. -/
theorem stepW_apply (s : Nat) (hs : s < 128) (v : FVec Ideal SB .f32) (hR : SB.Rotates 2 none) (hI : SB.Iotas .tc 32 [2])
    (n : Fin 64) (h w : Fin 128) :
    stepW s v hR hI (ix3 n h w) = shiftMax s (fun w' : Fin 128 => v (ix3 n h w')) w := by
  unfold stepW shiftMax
  rw [maximumf_apply, select_apply]
  have hc : cmpi .sge (iota .tc SB 32 [2] hI) (broadcast SB (BitVec.ofNat 32 s)) (ix3 n h w)
      = if s ≤ w.val then 1#1 else 0#1 := by
    show IntOp.cmpi .sge (BitVec.ofNat 32 (0 * 128 + w.val)) (BitVec.ofNat 32 s) = _
    rw [Nat.zero_mul, Nat.zero_add]
    exact sge_small w.val s w.isLt hs
  rw [hc]
  by_cases hle : s ≤ w.val
  · rw [if_pos hle, select_one, dif_pos hle]
    refine congrArg (max _) ?_
    refine dynamicRotate_apply (2 : Fin 3) (BitVec.ofNat 32 s) v hR (ix3 n h w)
      (ix3 n h ⟨w.val - s, by have := w.isLt; omega⟩) (fun b => ?_)
    match b with
    | ⟨0, _⟩ => exact (if_neg (fun hh => absurd (congrArg Fin.val hh) (show ¬ (0 : Nat) = 2 by decide))).symm
    | ⟨1, _⟩ => exact (if_neg (fun hh => absurd (congrArg Fin.val hh) (show ¬ (1 : Nat) = 2 by decide))).symm
    | ⟨2, _⟩ =>
      refine Eq.trans ?_ (if_pos (Fin.ext rfl)).symm
      show w.val - s = (w.val + 128 - (BitVec.ofNat 32 s).toNat % 128) % 128
      rw [BitVec.toNat_ofNat, Nat.mod_eq_of_lt (show s < 2 ^ 32 by omega)]
      have := w.isLt
      omega
  · rw [if_neg hle, select_zero, dif_neg hle, broadcast_apply, negInf]

/-- A step with shift s ≤ L takes windows of L columns to windows of L + s columns. -/
theorem stepW_window (s L : Nat) (hs : s < 128) (hsL : s ≤ L) (x v : FVec Ideal SB .f32)
    (hR : SB.Rotates 2 none) (hI : SB.Iotas .tc 32 [2])
    (hv : ∀ (n : Fin 64) (h w : Fin 128), v (ix3 n h w) = winMax (fun w' : Fin 128 => x (ix3 n h w')) L w)
    (n : Fin 64) (h w : Fin 128) :
    stepW s v hR hI (ix3 n h w) = winMax (fun w' : Fin 128 => x (ix3 n h w')) (L + s) w := by
  rw [stepW_apply s hs v hR hI n h w]
  have e : (fun w' : Fin 128 => v (ix3 n h w')) = winMax (fun w' : Fin 128 => x (ix3 n h w')) L :=
    funext fun w' => hv n h w'
  rw [e]
  exact shiftMax_winMax _ L s hsL w

/-- The seven steps along the last axis. -/
def scanW (x : FVec Ideal SB .f32) (hR : SB.Rotates 2 none) (hI : SB.Iotas .tc 32 [2]) : FVec Ideal SB .f32 :=
  stepW 64 (stepW 32 (stepW 16 (stepW 8 (stepW 4 (stepW 2 (stepW 1 x hR hI) hR hI) hR hI) hR hI) hR hI) hR hI) hR hI

/-- The seven steps leave at (n, h, w) the maximum of row h of plane n over the columns up to w. -/
theorem scanW_apply (x : FVec Ideal SB .f32) (hR : SB.Rotates 2 none) (hI : SB.Iotas .tc 32 [2])
    (n : Fin 64) (h w : Fin 128) :
    scanW x hR hI (ix3 n h w) = prefMax (fun w' : Fin 128 => x (ix3 n h w')) w := by
  have h0 : ∀ (n : Fin 64) (h w : Fin 128), x (ix3 n h w) = winMax (fun w' : Fin 128 => x (ix3 n h w')) 1 w :=
    fun n h w => (winMax_one (fun w' : Fin 128 => x (ix3 n h w')) w).symm
  have h1 := stepW_window 1 1 (by omega) (by omega) x x hR hI h0
  have h2 := stepW_window 2 2 (by omega) (by omega) x _ hR hI h1
  have h4 := stepW_window 4 4 (by omega) (by omega) x _ hR hI h2
  have h8 := stepW_window 8 8 (by omega) (by omega) x _ hR hI h4
  have h16 := stepW_window 16 16 (by omega) (by omega) x _ hR hI h8
  have h32 := stepW_window 32 32 (by omega) (by omega) x _ hR hI h16
  have h64 := stepW_window 64 64 (by omega) (by omega) x _ hR hI h32
  unfold scanW
  rw [h64 n h w]
  exact winMax_full _ 128 (by omega) w

end Idealize.ShloMosaic.ScanOps

end
-- ==== Proof.LibCum.lean ====
/-
  Running maxima along the rows and along the columns of every 128 × 128 plane of an array.

  The specification: cumH replaces every entry by the maximum of its column over the rows up to its own, cumW by the
  maximum of its row over the columns up to its own; both for a stack of planes [B, 128, 128] and for the rank-four
  array [16, 256, 128, 128], whose 4096 planes stacked in row-major order are the stack [4096, 128, 128].  Shown here:
  the two are local to a plane, so they commute with the row-major reshapes between the two layouts and with cutting
  the stack into blocks of 64 planes; and a reduce-window by max with a window of 128 positions along one of the two
  plane axes, padded with 127 positions of the least element before the axis' start, read at an index, is cumH or cumW.
-/
import Idealize.ShloMosaic.Lib.ValueIdx
import Idealize.ShloMosaic.Lib.Pipeline.Value
import Idealize.ShloMosaic.PureOps.Ideal
import proofs.«138507_j54357106098213_1_alg».proof.Proof.LibPrefixMax

noncomputable section

namespace Idealize.ShloMosaic.CumMax

open Idealize.ShloMosaic Idealize.ShloMosaic.ValueIdx Idealize.ShloMosaic.PrefixMax

variable {α : Type} [LinearOrder α] [OrderBot α]

/-- A stack of B planes, and the rank-four array. -/
abbrev S3 (B : Nat) : Shape := ⟨3, ![B, 128, 128]⟩
abbrev SA : Shape := ⟨4, ![16, 256, 128, 128]⟩

/-! ## The specification -/

/-- Every entry replaced by the maximum of its column over the rows up to its own. -/
def cumH3 {B : Nat} (x : (S3 B).Idx → α) : (S3 B).Idx → α := fun i =>
  prefMax (N := 128) (fun h' : Fin 128 => x (ix3 (n0 := B) (n1 := 128) (n2 := 128) (i 0) h' (i 2))) (i 1)

/-- Every entry replaced by the maximum of its row over the columns up to its own. -/
def cumW3 {B : Nat} (x : (S3 B).Idx → α) : (S3 B).Idx → α := fun i =>
  prefMax (N := 128) (fun w' : Fin 128 => x (ix3 (n0 := B) (n1 := 128) (n2 := 128) (i 0) (i 1) w')) (i 2)

theorem cumH3_apply {B : Nat} (x : (S3 B).Idx → α) (n : Fin B) (h w : Fin 128) :
    cumH3 x (ix3 n h w) = prefMax (fun h' : Fin 128 => x (ix3 n h' w)) h := rfl

theorem cumW3_apply {B : Nat} (x : (S3 B).Idx → α) (n : Fin B) (h w : Fin 128) :
    cumW3 x (ix3 n h w) = prefMax (fun w' : Fin 128 => x (ix3 n h w')) w := rfl

/-- The same on the rank-four array. -/
def cumH4 (x : SA.Idx → α) : SA.Idx → α := fun i =>
  prefMax (N := 128) (fun h' : Fin 128 => x (ix4 (n0 := 16) (n1 := 256) (n2 := 128) (n3 := 128) (i 0) (i 1) h' (i 3))) (i 2)

def cumW4 (x : SA.Idx → α) : SA.Idx → α := fun i =>
  prefMax (N := 128) (fun w' : Fin 128 => x (ix4 (n0 := 16) (n1 := 256) (n2 := 128) (n3 := 128) (i 0) (i 1) (i 2) w')) (i 3)

theorem cumH4_apply (x : SA.Idx → α) (a : Fin 16) (b : Fin 256) (h w : Fin 128) :
    cumH4 x (ix4 a b h w) = prefMax (fun h' : Fin 128 => x (ix4 a b h' w)) h := rfl

theorem cumW4_apply (x : SA.Idx → α) (a : Fin 16) (b : Fin 256) (h w : Fin 128) :
    cumW4 x (ix4 a b h w) = prefMax (fun w' : Fin 128 => x (ix4 a b h w')) w := rfl

/-! ## Locality: a plane's result depends on that plane alone -/

/-- If plane n of one stack is plane n' of another, the two-pass running maximum agrees on it. -/
theorem cum_plane_congr {B B' : Nat} (x : (S3 B).Idx → α) (x' : (S3 B').Idx → α) (n : Fin B) (n' : Fin B')
    (hx : ∀ h w : Fin 128, x (ix3 n h w) = x' (ix3 n' h w)) (h w : Fin 128) :
    cumW3 (cumH3 x) (ix3 n h w) = cumW3 (cumH3 x') (ix3 n' h w) := by
  rw [cumW3_apply, cumW3_apply]
  refine congrArg (fun f => prefMax f w) (funext fun w' => ?_)
  rw [cumH3_apply, cumH3_apply]
  exact congrArg (fun f => prefMax f h) (funext fun h' => hx h' w')

/-! ## The two layouts -/

/-- Plane 256 · a + b of the stack is plane (a, b) of the rank-four array. -/
def stack (x : SA.Idx → α) : (S3 4096).Idx → α := fun i =>
  x (ix4 (⟨(i 0).val / 256, by have : (i 0).val < 4096 := (i 0).isLt; omega⟩ : Fin 16)
    (⟨(i 0).val % 256, Nat.mod_lt _ (by omega)⟩ : Fin 256) (i 1) (i 2))

theorem stack_apply (x : SA.Idx → α) (a : Fin 16) (b : Fin 256) (h w : Fin 128) (hb : 256 * a.val + b.val < 4096) :
    stack x (ix3 ⟨256 * a.val + b.val, hb⟩ h w) = x (ix4 a b h w) := by
  unfold stack
  refine congrArg x (funext fun d => Fin.ext ?_)
  match d with
  | ⟨0, _⟩ => show (256 * a.val + b.val) / 256 = a.val; have := b.isLt; omega
  | ⟨1, _⟩ => show (256 * a.val + b.val) % 256 = b.val; have := b.isLt; omega
  | ⟨2, _⟩ => rfl
  | ⟨3, _⟩ => rfl

/-- The row-major reshape [16, 256, 128, 128] → [4096, 128, 128] is the stack. -/
theorem shapeCast_stack (x : SA.Idx → α) (hc : SA.ShapeCasts (S3 4096)) : shapeCast (S3 4096) x hc = stack x := by
  funext i
  obtain ⟨p, h, w, rfl⟩ : ∃ (p : Fin 4096) (h w : Fin 128), i = ix3 p h w := ⟨i 0, i 1, i 2, eq_ix3 i⟩
  refine shapeCast_apply x hc (ix3 p h w) _ ?_
  rw [Shape.rowMajor_val_four, Shape.rowMajor_val_three]
  show (((p.val / 256) * 256 + p.val % 256) * 128 + h.val) * 128 + w.val = (p.val * 128 + h.val) * 128 + w.val
  have : p.val / 256 * 256 + p.val % 256 = p.val := by omega
  rw [this]

/-- The row-major reshape back read at (a, b, h, w): plane 256 · a + b of the stack. -/
theorem shapeCast_unstack (y : (S3 4096).Idx → α) (hc : (S3 4096).ShapeCasts SA) (a : Fin 16) (b : Fin 256)
    (h w : Fin 128) (hb : 256 * a.val + b.val < 4096) :
    shapeCast SA y hc (ix4 a b h w) = y (ix3 ⟨256 * a.val + b.val, hb⟩ h w) := by
  refine shapeCast_apply y hc (ix4 a b h w) _ ?_
  rw [Shape.rowMajor_val_four, Shape.rowMajor_val_three]
  show ((256 * a.val + b.val) * 128 + h.val) * 128 + w.val = ((a.val * 256 + b.val) * 128 + h.val) * 128 + w.val
  omega

/-- THE LAW OF THE LAYOUTS: stack, take the running maxima plane by plane, unstack — that is the running maxima of the
    rank-four array. -/
theorem unstack_cum_stack (x : SA.Idx → α) (hc : SA.ShapeCasts (S3 4096)) (hc' : (S3 4096).ShapeCasts SA) :
    shapeCast SA (cumW3 (cumH3 (shapeCast (S3 4096) x hc))) hc' = cumW4 (cumH4 x) := by
  funext i
  obtain ⟨a, b, h, w, rfl⟩ : ∃ (a : Fin 16) (b : Fin 256) (h w : Fin 128), i = ix4 a b h w :=
    ⟨i 0, i 1, i 2, i 3, eq_ix4 i⟩
  have hb : 256 * a.val + b.val < 4096 := by have := a.isLt; have := b.isLt; omega
  rw [shapeCast_unstack _ hc' a b h w hb, cumW3_apply, cumW4_apply]
  refine congrArg (fun f => prefMax f w) (funext fun w' => ?_)
  rw [cumH3_apply, cumH4_apply]
  refine congrArg (fun f => prefMax f h) (funext fun h' => ?_)
  rw [shapeCast_stack]
  exact stack_apply x a b h' w' hb

/-! ## A reduce-window by max along the rows, read at an index -/

/-- The window along the rows: 128 positions on axis 2. -/
abbrev WH : Shape := ⟨4, ![1, 1, 128, 1]⟩

theorem WH_numel : WH.numel = 128 := by decide

/-- Window position n, in row-major order, is row n. -/
theorem wposH (n : Fin WH.numel) (d : Fin 4) : (WH.rowMajor.symm n d).val = (![0, 0, n.val, 0] : Fin 4 → Nat) d := by
  have hn : n.val < 128 := lt_of_lt_of_eq n.isLt WH_numel
  have e : WH.rowMajor.symm n = ix4 (0 : Fin 1) (0 : Fin 1) (⟨n.val, hn⟩ : Fin 128) (0 : Fin 1) := by
    rw [Equiv.symm_apply_eq]
    apply Fin.ext
    rw [Shape.rowMajor_val_four]
    show n.val = (((0 : Nat) * 1 + 0) * 128 + n.val) * 1 + 0
    omega
  rw [e]
  match d with
  | ⟨0, _⟩ => rfl
  | ⟨1, _⟩ => rfl
  | ⟨2, _⟩ => rfl
  | ⟨3, _⟩ => rfl

/-- Window position q at output index (a, b, h, w), shifted back by the low padding (0, 0, 127, 0), lies inside the
    operand on every axis. -/
abbrev inWinH (a : Fin 16) (b : Fin 256) (h w : Fin 128) (hr : 4 = 4) (q : Fin 4 → Nat) : Prop :=
  ∀ d : Fin 4, (![0, 0, 127, 0] : Fin 4 → Nat) d
      ≤ (ix4 a b h w (d.cast hr)).val * (![1, 1, 1, 1] : Fin 4 → Nat) d + q d
    ∧ (ix4 a b h w (d.cast hr)).val * (![1, 1, 1, 1] : Fin 4 → Nat) d + q d - (![0, 0, 127, 0] : Fin 4 → Nat) d
      < (![16, 256, 128, 128] : Fin 4 → Nat) d

/-- One window position: the operand's entry at row h + k - 127 when that row exists, the initial value when it is
    padding. -/
theorem window_termH (x : SA.Idx → α) (v : α) (a : Fin 16) (b : Fin 256) (h w : Fin 128) (k : Nat) (hr : 4 = 4)
    (q : Fin 4 → Nat) (hq : ∀ d, q d = (![0, 0, k, 0] : Fin 4 → Nat) d) (inst : Decidable (inWinH a b h w hr q)) :
    @dite α (inWinH a b h w hr q) inst
      (fun hin => x (fun d => ⟨(ix4 a b h w (d.cast hr)).val * (![1, 1, 1, 1] : Fin 4 → Nat) d + q d
        - (![0, 0, 127, 0] : Fin 4 → Nat) d, (hin d).2⟩)) (fun _ => v)
    = if hin : 128 - 1 ≤ h.val + k ∧ h.val + k - (128 - 1) < 128 then x (ix4 a b ⟨h.val + k - (128 - 1), hin.2⟩ w) else v := by
  have q0 : q 0 = 0 := hq 0
  have q1 : q 1 = 0 := hq 1
  have q2 : q 2 = k := hq 2
  have q3 : q 3 = 0 := hq 3
  by_cases hin : 128 - 1 ≤ h.val + k ∧ h.val + k - (128 - 1) < 128
  · have hall : inWinH a b h w hr q := by
      intro d
      match d with
      | ⟨0, _⟩ => show 0 ≤ a.val * 1 + q 0 ∧ a.val * 1 + q 0 - 0 < 16; have := a.isLt; omega
      | ⟨1, _⟩ => show 0 ≤ b.val * 1 + q 1 ∧ b.val * 1 + q 1 - 0 < 256; have := b.isLt; omega
      | ⟨2, _⟩ => show 127 ≤ h.val * 1 + q 2 ∧ h.val * 1 + q 2 - 127 < 128; omega
      | ⟨3, _⟩ => show 0 ≤ w.val * 1 + q 3 ∧ w.val * 1 + q 3 - 0 < 128; have := w.isLt; omega
    rw [dif_pos hall, dif_pos hin]
    refine congrArg x (funext fun d => Fin.ext ?_)
    match d with
    | ⟨0, _⟩ => show a.val * 1 + q 0 - 0 = a.val; omega
    | ⟨1, _⟩ => show b.val * 1 + q 1 - 0 = b.val; omega
    | ⟨2, _⟩ => show h.val * 1 + q 2 - 127 = h.val + k - (128 - 1); omega
    | ⟨3, _⟩ => show w.val * 1 + q 3 - 0 = w.val; omega
  · have hnot : ¬ inWinH a b h w hr q := by
      intro hall
      have h2 : 127 ≤ h.val * 1 + q 2 ∧ h.val * 1 + q 2 - 127 < 128 := hall 2
      exact hin (by omega)
    rw [dif_neg hnot, dif_neg hin]

/-- THE REDUCE-WINDOW ALONG THE ROWS at (a, b, h, w), from an initial value that is the least element: the maximum
    of column w of plane (a, b) over the rows up to h. -/
theorem reduceWindowH_apply (x : SA.Idx → EReal) {u : Shape} (init : u.Idx → EReal)
    (hw : SA.ReduceWindows ![1, 1, 128, 1] ![1, 1, 1, 1] ![0, 0, 127, 0] ![0, 0, 0, 0] SA) (hu : 0 < u.numel)
    (hinit : init (Shape.Idx.first hu) = ⊥) (a : Fin 16) (b : Fin 256) (h w : Fin 128) :
    Host.reduceWindow (FloatOps.maximumf (F := Ideal) (φ := .f32)) ![1, 1, 128, 1] ![1, 1, 1, 1] ![0, 0, 127, 0]
      ![0, 0, 0, 0] x init hw hu (ix4 a b h w) = cumH4 x (ix4 a b h w) := by
  rw [cumH4_apply]
  unfold Host.reduceWindow
  dsimp only
  rw [hinit]
  refine (congrArg (fun f => List.foldl f (⊥ : EReal) (List.finRange WH.numel)) (funext fun r => funext fun n =>
    (congrArg (max r) (window_termH x ⊥ a b h w n.val hw.1.symm _ (fun d => wposH n d) _)))).trans ?_
  rw [foldl_finRange_max]
  exact sup_padded_eq_prefMax' WH_numel (fun h' : Fin 128 => x (ix4 a b h' w)) h _ (fun n => rfl)

/-! ## A reduce-window by max along the columns, read at an index -/

/-- The window along the columns: 128 positions on axis 3. -/
abbrev WW : Shape := ⟨4, ![1, 1, 1, 128]⟩

theorem WW_numel : WW.numel = 128 := by decide

/-- Window position n, in row-major order, is column n. -/
theorem wposW (n : Fin WW.numel) (d : Fin 4) : (WW.rowMajor.symm n d).val = (![0, 0, 0, n.val] : Fin 4 → Nat) d := by
  have hn : n.val < 128 := lt_of_lt_of_eq n.isLt WW_numel
  have e : WW.rowMajor.symm n = ix4 (0 : Fin 1) (0 : Fin 1) (0 : Fin 1) (⟨n.val, hn⟩ : Fin 128) := by
    rw [Equiv.symm_apply_eq]
    apply Fin.ext
    rw [Shape.rowMajor_val_four]
    show n.val = (((0 : Nat) * 1 + 0) * 1 + 0) * 128 + n.val
    omega
  rw [e]
  match d with
  | ⟨0, _⟩ => rfl
  | ⟨1, _⟩ => rfl
  | ⟨2, _⟩ => rfl
  | ⟨3, _⟩ => rfl

/-- Window position q at output index (a, b, h, w), shifted back by the low padding (0, 0, 0, 127), lies inside the
    operand on every axis. -/
abbrev inWinW (a : Fin 16) (b : Fin 256) (h w : Fin 128) (hr : 4 = 4) (q : Fin 4 → Nat) : Prop :=
  ∀ d : Fin 4, (![0, 0, 0, 127] : Fin 4 → Nat) d
      ≤ (ix4 a b h w (d.cast hr)).val * (![1, 1, 1, 1] : Fin 4 → Nat) d + q d
    ∧ (ix4 a b h w (d.cast hr)).val * (![1, 1, 1, 1] : Fin 4 → Nat) d + q d - (![0, 0, 0, 127] : Fin 4 → Nat) d
      < (![16, 256, 128, 128] : Fin 4 → Nat) d

/-- One window position: the operand's entry at column w + k - 127 when that column exists, the initial value when
    it is padding. -/
theorem window_termW (x : SA.Idx → α) (v : α) (a : Fin 16) (b : Fin 256) (h w : Fin 128) (k : Nat) (hr : 4 = 4)
    (q : Fin 4 → Nat) (hq : ∀ d, q d = (![0, 0, 0, k] : Fin 4 → Nat) d) (inst : Decidable (inWinW a b h w hr q)) :
    @dite α (inWinW a b h w hr q) inst
      (fun hin => x (fun d => ⟨(ix4 a b h w (d.cast hr)).val * (![1, 1, 1, 1] : Fin 4 → Nat) d + q d
        - (![0, 0, 0, 127] : Fin 4 → Nat) d, (hin d).2⟩)) (fun _ => v)
    = if hin : 128 - 1 ≤ w.val + k ∧ w.val + k - (128 - 1) < 128 then x (ix4 a b h ⟨w.val + k - (128 - 1), hin.2⟩) else v := by
  have q0 : q 0 = 0 := hq 0
  have q1 : q 1 = 0 := hq 1
  have q2 : q 2 = 0 := hq 2
  have q3 : q 3 = k := hq 3
  by_cases hin : 128 - 1 ≤ w.val + k ∧ w.val + k - (128 - 1) < 128
  · have hall : inWinW a b h w hr q := by
      intro d
      match d with
      | ⟨0, _⟩ => show 0 ≤ a.val * 1 + q 0 ∧ a.val * 1 + q 0 - 0 < 16; have := a.isLt; omega
      | ⟨1, _⟩ => show 0 ≤ b.val * 1 + q 1 ∧ b.val * 1 + q 1 - 0 < 256; have := b.isLt; omega
      | ⟨2, _⟩ => show 0 ≤ h.val * 1 + q 2 ∧ h.val * 1 + q 2 - 0 < 128; have := h.isLt; omega
      | ⟨3, _⟩ => show 127 ≤ w.val * 1 + q 3 ∧ w.val * 1 + q 3 - 127 < 128; omega
    rw [dif_pos hall, dif_pos hin]
    refine congrArg x (funext fun d => Fin.ext ?_)
    match d with
    | ⟨0, _⟩ => show a.val * 1 + q 0 - 0 = a.val; omega
    | ⟨1, _⟩ => show b.val * 1 + q 1 - 0 = b.val; omega
    | ⟨2, _⟩ => show h.val * 1 + q 2 - 0 = h.val; omega
    | ⟨3, _⟩ => show w.val * 1 + q 3 - 127 = w.val + k - (128 - 1); omega
  · have hnot : ¬ inWinW a b h w hr q := by
      intro hall
      have h3 : 127 ≤ w.val * 1 + q 3 ∧ w.val * 1 + q 3 - 127 < 128 := hall 3
      exact hin (by omega)
    rw [dif_neg hnot, dif_neg hin]

/-- THE REDUCE-WINDOW ALONG THE COLUMNS at (a, b, h, w), from an initial value that is the least element: the
    maximum of row h of plane (a, b) over the columns up to w. -/
theorem reduceWindowW_apply (x : SA.Idx → EReal) {u : Shape} (init : u.Idx → EReal)
    (hw : SA.ReduceWindows ![1, 1, 1, 128] ![1, 1, 1, 1] ![0, 0, 0, 127] ![0, 0, 0, 0] SA) (hu : 0 < u.numel)
    (hinit : init (Shape.Idx.first hu) = ⊥) (a : Fin 16) (b : Fin 256) (h w : Fin 128) :
    Host.reduceWindow (FloatOps.maximumf (F := Ideal) (φ := .f32)) ![1, 1, 1, 128] ![1, 1, 1, 1] ![0, 0, 0, 127]
      ![0, 0, 0, 0] x init hw hu (ix4 a b h w) = cumW4 x (ix4 a b h w) := by
  rw [cumW4_apply]
  unfold Host.reduceWindow
  dsimp only
  rw [hinit]
  refine (congrArg (fun f => List.foldl f (⊥ : EReal) (List.finRange WW.numel)) (funext fun r => funext fun n =>
    (congrArg (max r) (window_termW x ⊥ a b h w n.val hw.1.symm _ (fun d => wposW n d) _)))).trans ?_
  rw [foldl_finRange_max]
  exact sup_padded_eq_prefMax' WW_numel (fun w' : Fin 128 => x (ix4 a b h w')) w _ (fun n => rfl)

/-- Both passes of the reference as one function of the argument. -/
theorem reduceWindow_both (x : SA.Idx → EReal) {u u' : Shape} (init : u.Idx → EReal) (init' : u'.Idx → EReal)
    (hwH : SA.ReduceWindows ![1, 1, 128, 1] ![1, 1, 1, 1] ![0, 0, 127, 0] ![0, 0, 0, 0] SA)
    (hwW : SA.ReduceWindows ![1, 1, 1, 128] ![1, 1, 1, 1] ![0, 0, 0, 127] ![0, 0, 0, 0] SA)
    (hu : 0 < u.numel) (hu' : 0 < u'.numel)
    (hinit : init (Shape.Idx.first hu) = ⊥) (hinit' : init' (Shape.Idx.first hu') = ⊥) :
    Host.reduceWindow (FloatOps.maximumf (F := Ideal) (φ := .f32)) ![1, 1, 1, 128] ![1, 1, 1, 1] ![0, 0, 0, 127] ![0, 0, 0, 0]
      (Host.reduceWindow (FloatOps.maximumf (F := Ideal) (φ := .f32)) ![1, 1, 128, 1] ![1, 1, 1, 1] ![0, 0, 127, 0]
        ![0, 0, 0, 0] x init hwH hu) init' hwW hu' = cumW4 (cumH4 x) := by
  have e1 : Host.reduceWindow (FloatOps.maximumf (F := Ideal) (φ := .f32)) ![1, 1, 128, 1] ![1, 1, 1, 1] ![0, 0, 127, 0]
      ![0, 0, 0, 0] x init hwH hu = cumH4 x := by
    funext i
    obtain ⟨a, b, h, w, rfl⟩ : ∃ (a : Fin 16) (b : Fin 256) (h w : Fin 128), i = ix4 a b h w :=
      ⟨i 0, i 1, i 2, i 3, eq_ix4 i⟩
    exact reduceWindowH_apply x init hwH hu hinit a b h w
  rw [e1]
  funext i
  obtain ⟨a, b, h, w, rfl⟩ : ∃ (a : Fin 16) (b : Fin 256) (h w : Fin 128), i = ix4 a b h w :=
    ⟨i 0, i 1, i 2, i 3, eq_ix4 i⟩
  exact reduceWindowW_apply (cumH4 x) init' hwW hu' hinit' a b h w

end Idealize.ShloMosaic.CumMax

end
-- ==== Proof.KernelBody.lean ====
/-
  What the idealized kernel's program leaves in its result array: the running maxima, first down the columns and then
  along the rows, of every 128 × 128 plane of the argument.

  The body of the kernel is fourteen steps of a doubling scan on a block of 64 planes: seven along the rows' axis with
  shifts 1, 2, …, 64, then seven along the columns' axis; each step rotates the block, masks the entries that came
  round the end with -∞ and takes the pointwise maximum.  So a block leaves the two-pass running maxima of its own
  planes.  The blocks are 64 consecutive planes of the stack of 4096 planes, the operation is local to a plane, so the
  64 write-backs together leave the two-pass running maxima of the whole stack; the stack is the row-major reshape of
  the argument, and the result is the reshape back.
-/
import proofs.«138507_j54357106098213_1_alg».proof.Proof.KernelIdealFrame
import proofs.«138507_j54357106098213_1_alg».proof.Proof.LibScanOps
import proofs.«138507_j54357106098213_1_alg».proof.Proof.LibCum
import Idealize.ShloMosaic.Lib.Pipeline.Value
import Idealize.ShloMosaic.Lib.StableHlo.Run
import Idealize.ShloMosaic.Lib.Tactic

noncomputable section

namespace Cert.KernelIdeal.PoolValue

open Cert.KernelIdeal Cert.KernelIdeal.Gen Cert.KernelIdeal.GenP
open Idealize.ShloMosaic Idealize.ShloMosaic.TcCoe Idealize.SL.Sem Idealize.ShloMosaic.StableHlo
open Idealize.ShloMosaic.Pipeline (Dat)
open Idealize.ShloMosaic.ValueIdx Idealize.ShloMosaic.PrefixMax Idealize.ShloMosaic.ScanOps Idealize.ShloMosaic.CumMax

/-! ## The body's arithmetic is the fourteen steps -/

/-- The first five steps along the rows' axis. -/
theorem pay2_eq (x : Vec Ideal S64x128x128 .f32) :
    k0_pay2 (F := Ideal) x
      = stepH 16 (stepH 8 (stepH 4 (stepH 2 (stepH 1 x rotates_S64x128x128_d1 iota_S64x128x128_d1_w32)
          rotates_S64x128x128_d1 iota_S64x128x128_d1_w32) rotates_S64x128x128_d1 iota_S64x128x128_d1_w32)
          rotates_S64x128x128_d1 iota_S64x128x128_d1_w32) rotates_S64x128x128_d1 iota_S64x128x128_d1_w32 := by
  have e : shapeCast S64x128x128 x shapeCasts_S64x128x128_S64x128x128 = x := shapeCast_self x _
  unfold k0_pay2
  rw [e]
  rfl

/-- The rotation that opens the sixth step. -/
theorem pay3_eq (x : Vec Ideal S64x128x128 .f32) :
    k0_pay3 (F := Ideal) x = dynamicRotate 1 32#32 none (k0_pay2 x) rotates_S64x128x128_d1 := rfl

/-- The last two steps along the rows' axis and the first four along the columns'. -/
theorem pay4_eq (a : FVec Ideal S64x128x128 .f32) :
    k0_pay4 (F := Ideal) a (dynamicRotate 1 32#32 none a rotates_S64x128x128_d1)
        (iota .tc S64x128x128 32 [1] iota_S64x128x128_d1_w32) 32#32
      = stepW 8 (stepW 4 (stepW 2 (stepW 1
          (stepH 64 (stepH 32 a rotates_S64x128x128_d1 iota_S64x128x128_d1_w32) rotates_S64x128x128_d1 iota_S64x128x128_d1_w32)
          rotates_S64x128x128_d2 iota_S64x128x128_d2_w32) rotates_S64x128x128_d2 iota_S64x128x128_d2_w32)
          rotates_S64x128x128_d2 iota_S64x128x128_d2_w32) rotates_S64x128x128_d2 iota_S64x128x128_d2_w32 := rfl

/-- The rotation that opens the twelfth step. -/
theorem pay5_eq (a b : FVec Ideal S64x128x128 .f32) (v : IVec S64x128x128 32) (s : BitVec 32) :
    k0_pay5 (F := Ideal) a b v s = dynamicRotate 2 16#32 none (k0_pay4 a b v s) rotates_S64x128x128_d2 := rfl

/-- The last three steps along the columns' axis. -/
theorem pay1_eq (b : FVec Ideal S64x128x128 .f32) :
    k0_pay1 (F := Ideal) b (dynamicRotate 2 16#32 none b rotates_S64x128x128_d2)
        (iota .tc S64x128x128 32 [2] iota_S64x128x128_d2_w32) 16#32
      = stepW 64 (stepW 32 (stepW 16 b rotates_S64x128x128_d2 iota_S64x128x128_d2_w32)
          rotates_S64x128x128_d2 iota_S64x128x128_d2_w32) rotates_S64x128x128_d2 iota_S64x128x128_d2_w32 := rfl

theorem hz : (![0, 0, 0] : Fin 3 → Nat) = fun _ => 0 := funext fun a => by fin_cases a <;> rfl

/-- WHAT THE BODY LEAVES in the output's staging buffer, from the input block: the running maxima down the columns
    and then along the rows of each of the block's planes. -/
theorem out_eq (x0 : Vec Ideal S64x128x128 .f32) :
    GenP.out0_1 (F := Ideal) x0 = cumW3 (cumH3 (x0 : (S3 64).Idx → EReal)) := by
  unfold GenP.out0_1
  rw [View.canon_unit_zero hz]
  simp only [View.ld_unit_zero (S := S64x128x128) hz]
  rw [pay5_eq, pay3_eq, pay4_eq, pay1_eq, pay2_eq]
  funext i
  obtain ⟨n, h, w, rfl⟩ : ∃ (n : Fin 64) (h w : Fin 128), i = ix3 n h w := ⟨i 0, i 1, i 2, eq_ix3 i⟩
  refine (scanW_apply _ rotates_S64x128x128_d2 iota_S64x128x128_d2_w32 n h w).trans ?_
  rw [cumW3_apply]
  refine congrArg (fun f => prefMax f w) (funext fun w' => ?_)
  exact (scanH_apply x0 rotates_S64x128x128_d1 iota_S64x128x128_d1_w32 n h w')

end Cert.KernelIdeal.PoolValue

end
-- ==== Proof.KernelValue.lean ====
/-
  The idealized kernel's run, read: its result array ends at the running maxima, down the columns and then along the
  rows, of every 128 × 128 plane of the argument.

  The region's input array is the argument reshaped to a stack of 4096 planes; grid point t reads planes 64 t … 64 t + 63
  of it and writes back the two-pass running maxima of those planes at the same place in the output stack; a plane's
  result depends on that plane alone, so the 64 write-backs leave the two-pass running maxima of the whole stack; the
  result is that stack reshaped back to [16, 256, 128, 128].
-/
import proofs.«138507_j54357106098213_1_alg».proof.Proof.KernelBody

noncomputable section

namespace Cert.KernelIdeal.PoolValue

open Cert.KernelIdeal Cert.KernelIdeal.Gen Cert.KernelIdeal.GenP
open Idealize.ShloMosaic Idealize.ShloMosaic.TcCoe Idealize.SL.Sem Idealize.ShloMosaic.StableHlo
open Idealize.ShloMosaic.Pipeline (Dat)
open Idealize.ShloMosaic.ValueIdx Idealize.ShloMosaic.PrefixMax Idealize.ShloMosaic.ScanOps Idealize.ShloMosaic.CumMax

variable (m : (ℓ : Loc nD τ sig) → Buf (Elt Ideal) ℓ) (ρ : Dev nD → PrngReg)

/-! ## The stack the region reads -/

/-- The region finds in its input array the argument reshaped to 4096 planes. -/
theorem V_stack (c : Dev nD) :
    (V m c main_v0 : S4096x128x128.Idx → EReal)
      = shapeCast S4096x128x128 (m ((c : Thread nD τ).loc main_arg0) : S16x256x128x128.Idx → EReal)
          shapeCasts_S16x256x128x128_S4096x128x128 := by
  show StableHlo.after hostOps0 (fun b => m (c, b)) (Proc.devRef .tc main_v0) = _
  after_results
  rfl

/-! ## The blocks -/

/-- The printed index maps over the grid: point t's block of either window is block t along the planes' axis. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Plane n of the input block at point t is plane 64 t + n of the stack. -/
theorem iblk_apply (c : Dev nD) (t : Fin cfg0.N) (n : Fin 64) (h w : Fin 128) (hn : t.val * 64 + n.val < 4096) :
    (iblk m c 0 t : S64x128x128.Idx → EReal) (ix3 n h w)
      = (V m c main_v0 : S4096x128x128.Idx → EReal) (ix3 ⟨t.val * 64 + n.val, hn⟩ h w) := by
  obtain ⟨e0, e1, e2, -, -, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 64 + 1 * n.val = t.val * 64 + n.val; rw [e0]; omega
  | ⟨1, _⟩ => show win0_0.index t (1 : Fin 3) * 128 + 1 * h.val = h.val; rw [e1]; omega
  | ⟨2, _⟩ => show win0_0.index t (2 : Fin 3) * 128 + 1 * w.val = w.val; rw [e2]; omega

/-- A block of 64 planes that sits at planes 64 T … 64 T + 63 of a stack has, at every index, the stack's two-pass
    running maxima at the corresponding index. -/
theorem block_law (A : (S3 4096).Idx → EReal) (blk : (S3 64).Idx → EReal) (T : Nat) (hT : T < 64)
    (hblk : ∀ (n : Fin 64) (h w : Fin 128),
      blk (ix3 n h w) = A (ix3 ⟨T * 64 + n.val, by have := n.isLt; omega⟩ h w))
    (y : (S3 64).Idx) (i : (S3 4096).Idx)
    (hi0 : (i 0).val = T * 64 + 1 * (y 0).val) (hi1 : (i 1).val = 0 * 128 + 1 * (y 1).val)
    (hi2 : (i 2).val = 0 * 128 + 1 * (y 2).val) :
    cumW3 (cumH3 blk) y = cumW3 (cumH3 A) i := by
  obtain ⟨n, h, w, rfl⟩ : ∃ (n : Fin 64) (h w : Fin 128), y = ix3 n h w := ⟨y 0, y 1, y 2, eq_ix3 y⟩
  have hi : i = ix3 (⟨T * 64 + n.val, by have := n.isLt; omega⟩ : Fin 4096) h w := by
    funext a
    apply Fin.ext
    match a with
    | ⟨0, _⟩ => show (i 0).val = T * 64 + n.val; rw [hi0]; show T * 64 + 1 * n.val = _; omega
    | ⟨1, _⟩ => show (i 1).val = h.val; rw [hi1]; show 0 * 128 + 1 * h.val = _; omega
    | ⟨2, _⟩ => show (i 2).val = w.val; rw [hi2]; show 0 * 128 + 1 * w.val = _; omega
  rw [hi]
  exact cum_plane_congr blk A n _ (fun h' w' => hblk n h' w') h w

/-- WHAT POINT t WRITES BACK is block t of the two-pass running maxima of the stack. -/
theorem flushed_eq (c : Dev nD) (t : Fin cfg0.N) :
    (dats m 0 c).flushed 1 t
      = ((cfg0.win 1).blk t).view.read (Elt Ideal) (cumW3 (α := EReal) (B := 4096) (cumH3 (α := EReal) (B := 4096) (V m c main_v0))) := by
  show (cfg0.win 1).cut (grid0.coords t) ((dats m 0 c).after 1 t) = _
  rw [after0_1, out_eq]
  obtain ⟨-, -, -, e0, e1, e2⟩ := idx_facts t
  have hN : cfg0.N = 64 := N_0
  have ht : t.val < 64 := by have := t.isLt; omega
  funext y
  show cumW3 (α := EReal) (B := 64) (cumH3 (α := EReal) (B := 64) (iblk m c 0 t)) y
    = cumW3 (α := EReal) (B := 4096) (cumH3 (α := EReal) (B := 4096) (V m c main_v0)) (((cfg0.win 1).blk t).view.emb y)
  refine block_law (V m c main_v0) (iblk m c 0 t) t.val ht
    (fun n h w => iblk_apply m c t n h w (by have := n.isLt; omega)) y _ ?_ ?_ ?_
  · show win0_1.index t (0 : Fin 3) * 64 + 1 * (y 0).val = t.val * 64 + 1 * (y 0).val
    rw [e0]
  · show win0_1.index t (1 : Fin 3) * 128 + 1 * (y 1).val = 0 * 128 + 1 * (y 1).val
    rw [e1]
  · show win0_1.index t (2 : Fin 3) * 128 + 1 * (y 2).val = 0 * 128 + 1 * (y 2).val
    rw [e2]

/-- An index of the stack is in point t's block iff each coordinate is in the block's range on its axis. -/
theorem mem_blk (t : Fin cfg0.N) (i : S4096x128x128.Idx) :
    i ∈ ((cfg0.win 1).blk t).view.set ↔ ∀ a : Fin 3, win0_1.index t a * S64x128x128.size a ≤ (i a).val
      ∧ (i a).val < win0_1.index t a * S64x128x128.size a + S64x128x128.size a := by
  show i ∈ ((View.whole main_v1).slice (win0_1.rect t)).set ↔ _
  rw [View.set_slice_whole, Rect.mem_set_unit]
  exact Iff.rfl

/-- THE OUTPUT STACK after the run: the two-pass running maxima of the input stack (plane p is written by point
    p / 64). -/
theorem final (c : Dev nD) :
    (dats m 0 c).arrAt 1 cfg0.N = cumW3 (α := EReal) (B := 4096) (cumH3 (α := EReal) (B := 4096) (V m c main_v0)) :=
  (dats m 0 c).arrAt_eq_of_cover 1 _ (fun t _ => flushed_eq m c t) (fun i => by
    have hN : cfg0.N = 64 := N_0
    have hi0 : (i 0).val < 4096 := (i 0).isLt
    have hi1 : (i 1).val < 128 := (i 1).isLt
    have hi2 : (i 2).val < 128 := (i 2).isLt
    have htlt : (i 0).val / 64 < cfg0.N := by rw [hN]; omega
    obtain ⟨-, -, -, e0, e1, e2⟩ := idx_facts ⟨(i 0).val / 64, htlt⟩
    have e0' : win0_1.index ⟨(i 0).val / 64, htlt⟩ (0 : Fin 3) = (i 0).val / 64 := e0
    refine ⟨⟨(i 0).val / 64, htlt⟩, flush0_1 _, ?_⟩
    rw [mem_blk]
    intro a
    match a with
    | ⟨0, _⟩ =>
      show win0_1.index ⟨(i 0).val / 64, htlt⟩ (0 : Fin 3) * 64 ≤ (i 0).val
        ∧ (i 0).val < win0_1.index ⟨(i 0).val / 64, htlt⟩ (0 : Fin 3) * 64 + 64
      rw [e0']; omega
    | ⟨1, _⟩ =>
      show win0_1.index ⟨(i 0).val / 64, htlt⟩ (1 : Fin 3) * 128 ≤ (i 1).val
        ∧ (i 1).val < win0_1.index ⟨(i 0).val / 64, htlt⟩ (1 : Fin 3) * 128 + 128
      rw [e1]; omega
    | ⟨2, _⟩ =>
      show win0_1.index ⟨(i 0).val / 64, htlt⟩ (2 : Fin 3) * 128 ≤ (i 2).val
        ∧ (i 2).val < win0_1.index ⟨(i 0).val / 64, htlt⟩ (2 : Fin 3) * 128 + 128
      rw [e2]; omega)

/-! ## The reshape after the region, and the run -/

/-- The program's result: the output stack reshaped back, which is the two-pass running maxima of the argument. -/
theorem tail_result (c : Dev nD) :
    Pipeline.afterTail₀ cfgs (dats m) 0 (V0 m) [hostOps1] c main_v2
      = cumW4 (α := EReal) (cumH4 (α := EReal) (m ((c : Thread nD τ).loc main_arg0))) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = cumW3 (α := EReal) (B := 4096) (cumH3 (α := EReal) (B := 4096) (V m c main_v0)) :=
    (Pipeline.withArrays_arr spec0 launch0.win.arr_inj c _ _ 1).trans (final m c)
  rw [hA, V_stack]
  exact unstack_cum_stack (α := EReal) _ _ _

/-- THE RUN, READ: every weakly fair execution of the idealized kernel's program terminates with the result array at
    the two-pass running maxima of the argument and the argument unchanged. -/
theorem run : θ_run defs (onTc (τ := τ) (main (F := Ideal))) ⟨m, fun _ => 0, ρ⟩ fun r => ∀ c : Dev nD,
      r.2.mem ((c : Thread nD τ).loc main_v2)
        = cumW4 (α := EReal) (cumH4 (α := EReal) (m ((c : Thread nD τ).loc main_arg0)))
      ∧ r.2.mem ((c : Thread nD τ).loc main_arg0) = m ((c : Thread nD τ).loc main_arg0) :=
  (θ_run defs _ _).mono (fun r h c =>
    ⟨((h c).2 main_v2 (Pipeline.mem_restRefs_of main_v2 (by decide) (by decide))).trans (tail_result m c),
     ((h c).2 main_arg0 (Pipeline.mem_restRefs_of main_arg0 (by decide) (by decide))).trans (W_main_arg0 m (dats m) c)⟩)
    (run_main m ρ)

end Cert.KernelIdeal.PoolValue

end
-- ==== Proof.RefValue.lean ====
/-
  The idealized reference's result: two reduce-windows by max, each with a window of 128 positions along one axis of
  the planes, padded with 127 positions of -∞ before the axis' start — the running maxima down the columns and then
  along the rows of every 128 × 128 plane of the argument.
-/
import proofs.«138507_j54357106098213_1_alg».proof.Proof.RefRun
import proofs.«138507_j54357106098213_1_alg».proof.Proof.LibCum
import proofs.«138507_j54357106098213_1_alg».proof.Proof.LibScanOps

noncomputable section

namespace Cert.ReferenceIdeal.RefValue

open Cert.ReferenceIdeal Cert.ReferenceIdeal.Gen
open Idealize.ShloMosaic Idealize.ShloMosaic.TcCoe Idealize.SL.Sem
open Idealize.ShloMosaic.ValueIdx Idealize.ShloMosaic.CumMax

/-- The initial value of both reduce-windows is -∞, the least extended real. -/
theorem init_bot :
    broadcastInDim S_ ![] bcast_S_S_ (constant (F := Ideal) S_ .f32 0xFF800000#32) (Shape.Idx.first h_S_) = (⊥ : EReal) := by
  refine (broadcastInDim_apply _ bcast_S_S_ (constant (F := Ideal) S_ .f32 0xFF800000#32) (Shape.Idx.first h_S_)
    (fun a => a.elim0) (fun a => a.elim0)).trans ?_
  exact Idealize.ShloMosaic.ScanOps.negInf

/-- The reference run's result term is the two-pass running maxima of the argument. -/
theorem result_eq (x : S16x256x128x128.Idx → EReal) :
    Host.reduceWindow (FloatOps.maximumf (F := Ideal) (φ := .f32)) ![1, 1, 1, 128] ![1, 1, 1, 1] ![0, 0, 0, 127] ![0, 0, 0, 0]
      (Host.reduceWindow (FloatOps.maximumf (F := Ideal) (φ := .f32)) ![1, 1, 128, 1] ![1, 1, 1, 1] ![0, 0, 127, 0] ![0, 0, 0, 0] x
        (broadcastInDim S_ ![] bcast_S_S_ (constant (F := Ideal) S_ .f32 0xFF800000#32))
        reduceWindows_S16x256x128x128_S16x256x128x128_w1s1p0_0_w1s1p0_0_w128s1p127_0_w1s1p0_0 h_S_)
      (broadcastInDim S_ ![] bcast_S_S_ (constant (F := Ideal) S_ .f32 0xFF800000#32))
      reduceWindows_S16x256x128x128_S16x256x128x128_w1s1p0_0_w1s1p0_0_w1s1p0_0_w128s1p127_0 h_S_
    = cumW4 (cumH4 (x : SA.Idx → EReal)) :=
  reduceWindow_both x _ _ _ _ _ _ init_bot init_bot

end Cert.ReferenceIdeal.RefValue

end
-- ==== Proof.lean ====
/-
  The certificate of a kernel that computes, for every 128 × 128 plane of an array x of shape [16, 256, 128, 128], the
  running maxima  out[b, c, i, j] = max x[b, c, 0..i, 0..j]  — a running maximum down the columns followed by one along
  the rows — against a reference that takes the two running maxima as two reduce-windows by max.

  The kernel works on the array reshaped to a stack of 4096 planes, 64 planes per grid point, and obtains each running
  maximum by a doubling scan: seven steps with shifts 1, 2, 4, …, 64, each joining every entry with the entry that many
  places before it on the axis (-∞ where there is no such place).  After the steps up to shift s an entry holds the
  maximum of the window of 2 s positions ending at it, and a window of 128 positions is the whole prefix.  The
  reference's reduce-window folds max from -∞ over the 128 positions ending at an entry, -∞ standing for the positions
  before the axis' start: the same prefix maximum.  Over the extended reals max is the lattice join and -∞ the least
  element, so both programs end with one function of the argument, index by index, and no finiteness of the inputs is
  used.  The idealization changed nothing in the kernel's text, so it preserves it trivially.

  The three frames are the generated frame runs (the kernels') and the reference's generated run with its result
  dropped.
-/
import proofs.«138507_j54357106098213_1_alg».proof.Defs
import proofs.«138507_j54357106098213_1_alg».proof.Proof.Gen.Kernel
import proofs.«138507_j54357106098213_1_alg».proof.Proof.Gen.KernelIdeal
import proofs.«138507_j54357106098213_1_alg».proof.Proof.Gen.ReferenceIdeal
import proofs.«138507_j54357106098213_1_alg».proof.Proof.Gen.Pre_finite_inputs
import proofs.«138507_j54357106098213_1_alg».proof.Proof.KernelFrame
import proofs.«138507_j54357106098213_1_alg».proof.Proof.KernelIdealFrame
import proofs.«138507_j54357106098213_1_alg».proof.Proof.RefRun
import proofs.«138507_j54357106098213_1_alg».proof.Proof.KernelValue
import proofs.«138507_j54357106098213_1_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.CumMax

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- Both idealized programs, run from memories that agree on the argument, end with the two-pass running maxima of
    the argument's planes. -/
theorem algebraic : Cert.algebraic_KernelIdeal_ReferenceIdeal := by
  intro m ρ m' ρ' _ hagree
  refine ⟨fun c => cumW4 (α := EReal) (cumH4 (α := EReal) (m ((c.tc : Thread Cert.KernelIdeal.nD Cert.KernelIdeal.τ).loc Cert.KernelIdeal.main_arg0))),
    Cert.KernelIdeal.PoolValue.run m ρ, ?_⟩
  refine (θ_run Cert.ReferenceIdeal.defs _ _).mono (fun _ h c => ⟨(h c).1.trans ?_, (h c).2⟩)
    (Cert.ReferenceIdeal.ValueP.run (F := Ideal) m' ρ')
  rw [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
